-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S6400000 : Shape := ⟨1, ![6400000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : IVec S2x6400000 32) (main_arg1 : FVec F S6400000 .f32) : IVec S_ 1 :=
  let main_v0 : FVec F S6400000 .f32 := Host.absf main_arg1
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  main_v3
-- ==== Kernel.lean ====
abbrev S2x6400000 : Shape := ⟨2, ![2, 6400000]⟩
abbrev S6400000 : Shape := ⟨1, ![6400000]⟩
abbrev S1x6400000 : Shape := ⟨2, ![1, 6400000]⟩
abbrev S_ : Shape := ⟨0, ![]⟩
abbrev S100000 : Shape := ⟨1, ![100000]⟩
abbrev S6400000x1 : Shape := ⟨2, ![6400000, 1]⟩
abbrev S50000x128 : Shape := ⟨2, ![50000, 128]⟩
abbrev S5000x128 : Shape := ⟨2, ![5000, 128]⟩

abbrev nBuf : Space → Nat
  | .hbm => 22
  | .vmem => 6
  | .smem => 0
  | _ => 0

abbrev bufTy : (tb : Table) → Fin (tcTables nBuf tb) → BufTy
  | .hbm, ⟨0, _⟩ => ⟨S2x6400000, .i32⟩
  | .hbm, ⟨1, _⟩ => ⟨S6400000, .f32⟩
  | .hbm, ⟨2, _⟩ => ⟨S1x6400000, .i32⟩
  | .hbm, ⟨3, _⟩ => ⟨S6400000, .i32⟩
  | .hbm, ⟨4, _⟩ => ⟨S6400000, .f32⟩
  | .hbm, ⟨5, _⟩ => ⟨S_, .f32⟩
  | .hbm, ⟨6, _⟩ => ⟨S100000, .f32⟩
  | .hbm, ⟨7, _⟩ => ⟨S6400000x1, .i32⟩
  | .hbm, ⟨8, _⟩ => ⟨S100000, .f32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S6400000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x6400000_S1x6400000_1_0 : S2x6400000.Slices ![1, 0] S1x6400000
  shapeCasts_S1x6400000_S6400000 : S1x6400000.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S6400000 : S_.BroadcastsInDim S6400000 (![] : Fin 0 → Fin S6400000.rank)
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S6400000 : S50000x128.ShapeCasts S6400000
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x6400000 : Shape := ⟨2, ![2, 6400000]⟩
abbrev S6400000 : Shape := ⟨1, ![6400000]⟩
abbrev S1x6400000 : Shape := ⟨2, ![1, 6400000]⟩
abbrev S_ : Shape := ⟨0, ![]⟩
abbrev S100000 : Shape := ⟨1, ![100000]⟩
abbrev S6400000x1 : Shape := ⟨2, ![6400000, 1]⟩

abbrev nBuf : Space → Nat
  | .hbm => 19
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S6400000, .f32⟩
  | .hbm, ⟨2, _⟩ => ⟨S1x6400000, .i32⟩
  | .hbm, ⟨3, _⟩ => ⟨S6400000, .i32⟩
  | .hbm, ⟨4, _⟩ => ⟨S6400000, .f32⟩
  | .hbm, ⟨5, _⟩ => ⟨S_, .f32⟩
  | .hbm, ⟨6, _⟩ => ⟨S100000, .f32⟩
  | .hbm, ⟨7, _⟩ => ⟨S6400000x1, .i32⟩
  | .hbm, ⟨8, _⟩ => ⟨S100000, .f32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .f32⟩
  | .hbm, ⟨18, _⟩ => ⟨S6400000, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x6400000_S1x6400000_1_0 : S2x6400000.Slices ![1, 0] S1x6400000
  shapeCasts_S1x6400000_S6400000 : S1x6400000.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S6400000 : S_.BroadcastsInDim S6400000 (![] : Fin 0 → Fin S6400000.rank)
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

class Facts : Prop extends Facts₀ where

variable [Facts]
-- ==== Proof.Entry.lean ====
/-
  The arrays the kernel's one region finds. Before the region the program computes, on the host, the softmax
  denominators of the edges: with dst = row 1 of the edge index and w = exp(edge_weight), the segment sums
  s[v] = Σ { w[e] : dst[e] = v } (a scatter-add into zeros) gathered back along dst (negative entries wrapped by the
  number of nodes first): `denom` below, one operation per line of the program, left as the program spells it.
  The region's two input arrays are then the edge weights and these denominators, each re-laid as 50000 rows of 128.
-/
import proofs.«170172_j54065048322743_2_alg».proof.Proof.Gen.KernelIdeal.Frame
import Idealize.ShloMosaic.Lib.StableHlo.Run
import Idealize.ShloMosaic.Lib.Pipeline.Value

noncomputable section

namespace Cert.KernelIdeal.Softmax

open Cert.KernelIdeal Cert.KernelIdeal.Gen Idealize.ShloMosaic Idealize.ShloMosaic.TcCoe Idealize.SL.Sem
open Idealize.ShloMosaic.StableHlo

variable {F : FTy → Type} [FloatOps F]

/-- The destination node of every edge: row 1 of the edge index, as a flat vector. -/
def dst (a0 : (⟨S2x6400000, .i32⟩ : BufTy).Contents (Elt F)) : (⟨S6400000, .i32⟩ : BufTy).Contents (Elt F) :=
  shapeCast _ (extractStridedSlice S1x6400000 ![1, 0] a0 slices_S2x6400000_S1x6400000_1_0) shapeCasts_S1x6400000_S6400000

/-- The denominator of every edge: the sum of exp(weight) over the edges with the same destination, gathered at the
    edge's destination. -/
def denom (a0 : (⟨S2x6400000, .i32⟩ : BufTy).Contents (Elt F)) (a1 : (⟨S6400000, .f32⟩ : BufTy).Contents (Elt F)) :
    (⟨S6400000, .f32⟩ : BufTy).Contents (Elt F) :=
  Host.gather gather_S100000_S6400000x1_S6400000_n_0_n_n_0_1_1
    (Host.scatterAdd scatter_S100000_S6400000x1_S6400000_n_0_0_1
      (broadcastInDim S100000 ![] bcast_S_S100000 (constant S_ .f32 0x00000000#32))
      (broadcastInDim S6400000x1 ![0] bcast_S6400000_S6400000x1_0 (dst (F := F) a0))
      (Host.exp a1))
    (broadcastInDim S6400000x1 ![0] bcast_S6400000_S6400000x1_0
      (select (cmpi .slt (dst (F := F) a0) (broadcastInDim S6400000 ![] bcast_S_S6400000 (constantI S_ 32 0#32)))
        (addi (dst (F := F) a0) (broadcastInDim S6400000 ![] bcast_S_S6400000 (constantI S_ 32 100000#32)))
        (dst (F := F) a0)))

variable (m : (ℓ : Loc nD τ sig) → Buf (Elt F) ℓ)

/-- The region's first input array is the edge weights, 128 to a row. -/
theorem entry_weights (c : Dev nD) :
    (V m c main_v13 : S50000x128.Idx → Elt F .f32)
      = shapeCast S50000x128 (m ((c : Thread nD τ).loc main_arg1)) shapeCasts_S6400000_S50000x128 := by
  show StableHlo.after hostOps0 (fun b => m (c, b)) (Proc.devRef .tc main_v13) = _
  after_results
  rfl

/-- The region's second input array is the denominators, 128 to a row. -/
theorem entry_denoms (c : Dev nD) :
    (V m c main_v14 : S50000x128.Idx → Elt F .f32)
      = shapeCast S50000x128 (denom (F := F) (m ((c : Thread nD τ).loc main_arg0)) (m ((c : Thread nD τ).loc main_arg1)))
          shapeCasts_S6400000_S50000x128 := by
  show StableHlo.after hostOps0 (fun b => m (c, b)) (Proc.devRef .tc main_v14) = _
  after_results
  rfl

end Cert.KernelIdeal.Softmax

end
-- ==== Proof.Blocks.lean ====
/-
  From blocks to the array. The region runs over 10 grid points; point t takes rows 5000·t … 5000·t + 4999 of both
  input arrays and writes the same rows of the output. What it writes is, element by element, exp(weight) divided by
  the denominator. The ten blocks tile the 50000 rows, so after the region the whole output array is that quotient of
  the two input arrays as the region found them.
-/
import proofs.«170172_j54065048322743_2_alg».proof.Proof.Entry

set_option maxRecDepth 16384

noncomputable section

namespace Cert.KernelIdeal.Softmax

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem offset_zero : (![0, 0] : Fin 2 → Nat) = fun _ => 0 := funext fun a => by fin_cases a <;> rfl

/-- exp(weight) over the denominator, element by element, on arrays of 50000 rows of 128. -/
def ratioRows (w d : S50000x128.Idx → Elt F .f32) : S50000x128.Idx → Elt F .f32 :=
  fun i => FloatOps.divf (FloatOps.exp (w i)) (d i)

/-- The body's one stored value is exp of its first block divided by its second (its shape casts are of a shape to
    itself). -/
theorem stored_eq (x0 x1 : Vec F S5000x128 .f32) : k0_pay1 x0 x1 = divf (exp x0) x1 := by
  unfold k0_pay1
  simp only [shapeCast_self]

/-- The three windows move together: at point t each is at block row t of its array, block column 0. -/
theorem same_rows : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every block row of the output is some point's. -/
theorem every_block_row : ∀ (q : Fin 10), ∃ t : Fin cfg0.N, win0_2.index t = ![q.val, 0] :=
  (by decide +kernel : ∀ (q : Fin 10), ∃ t : Fin grid0.N, win0_2.index t = ![q.val, 0])

/-- What point t writes back is block t of the quotient of the two input arrays. -/
theorem flushed_eq (c : Dev nD) (t : Fin cfg0.N) :
    (dats m 0 c).flushed 2 t
      = ((cfg0.win 2).blk t).view.read (Elt F) (ratioRows (F := F) (V m c main_v13) (V m c main_v14)) := by
  show (cfg0.win 2).cut (grid0.coords t) ((dats m 0 c).after 2 t) = _
  rw [after0_2]
  unfold out0_2
  rw [View.canon_unit_zero offset_zero]
  simp only [View.ld_unit_zero (S := S5000x128) offset_zero]
  rw [stored_eq]
  obtain ⟨e0, e1, e2, e3⟩ := same_rows t
  funext j
  show FloatOps.divf (FloatOps.exp (V m c main_v13 (((cfg0.win 0).blk t).view.emb j))) (V m c main_v14 (((cfg0.win 1).blk t).view.emb j))
    = FloatOps.divf (FloatOps.exp (V m c main_v13 (((cfg0.win 2).blk t).view.emb j))) (V m c main_v14 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index of the output array lies in point t's block iff each coordinate lies in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Row r of the output lies in the block of the point at block row r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_block_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the quotient of the two input arrays, everywhere. -/
theorem region_result (c : Dev nD) :
    (dats m 0 c).arrAt 2 cfg0.N = ratioRows (F := F) (V m c main_v13) (V m c main_v14) :=
  (dats m 0 c).arrAt_eq_of_cover 2 _ (fun t _ => flushed_eq m c t) covered

end Cert.KernelIdeal.Softmax

end
-- ==== Proof.Result.lean ====
/-
  The kernel's result. After the region one more host operation flattens the 50000 rows of 128 back into the vector
  of 6400000 edges. Flattening a row-wise quotient of two re-laid vectors gives the quotient of the vectors themselves,
  so the program's second result is, edge by edge, exp(weight) divided by the edge's denominator.
-/
import proofs.«170172_j54065048322743_2_alg».proof.Proof.Blocks

noncomputable section

namespace Cert.KernelIdeal.Softmax

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-- exp(weight) over the denominator, edge by edge. -/
def ratio (w d : S6400000.Idx → Elt F .f32) : S6400000.Idx → Elt F .f32 :=
  fun i => FloatOps.divf (FloatOps.exp (w i)) (d i)

/-- Laying two vectors out in rows, dividing row-wise and flattening again is dividing the vectors. -/
theorem ratioRows_flat (w d : S6400000.Idx → Elt F .f32) :
    shapeCast S6400000 (ratioRows (F := F) (shapeCast S50000x128 w shapeCasts_S6400000_S50000x128)
        (shapeCast S50000x128 d shapeCasts_S6400000_S50000x128)) shapeCasts_S50000x128_S6400000
      = ratio (F := F) w d := by
  funext j
  show FloatOps.divf (FloatOps.exp (shapeCast S6400000 (shapeCast S50000x128 w shapeCasts_S6400000_S50000x128) shapeCasts_S50000x128_S6400000 j))
      (shapeCast S6400000 (shapeCast S50000x128 d shapeCasts_S6400000_S50000x128) shapeCasts_S50000x128_S6400000 j) = _
  rw [shapeCast_shapeCast, shapeCast_shapeCast]
  rfl

variable (m : (ℓ : Loc nD τ sig) → Buf (Elt F) ℓ) (ρ : Dev nD → PrngReg)

/-- The flattened output after the whole program: the quotient, edge by edge, of the argument arrays. -/
theorem result_eq (c : Dev nD) :
    Pipeline.afterTail₀ cfgs (dats m) 0 (V0 m) [hostOps1] c main_v16
      = ratio (F := F) (m ((c : Thread nD τ).loc main_arg1))
          (denom (F := F) (m ((c : Thread nD τ).loc main_arg0)) (m ((c : Thread nD τ).loc main_arg1))) := by
  unfold Pipeline.afterTail₀
  show StableHlo.after hostOps1 _ (Proc.devRef .tc main_v16) = _
  after_results
  have h : Pipeline.withArrays (cfgs 0).spec c (V0 m c) (fun w => (dats m 0 c).arrAt w (cfgs 0).N) (Proc.devRef .tc main_v15)
      = ratioRows (F := F) (V m c main_v13) (V m c main_v14) :=
    (Pipeline.withArrays_arr spec0 launch0.win.arr_inj c _ _ 2).trans (region_result m c)
  rw [h, entry_weights, entry_denoms]
  exact ratioRows_flat _ _

/-- The whole program's run: every weakly fair execution ends, without a fault, with the flattened output at the
    edge-by-edge quotient of the argument arrays, and the argument arrays as they were. -/
theorem run : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v16)
          = ratio (F := F) (m ((c.tc : Thread nD τ).loc main_arg1))
              (denom (F := F) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_arg0 (Pipeline.mem_restRefs_of main_arg0 (by decide) (by decide))).trans (W_main_arg0 m (dats m) c),
       ((h c).2 main_v16 (Pipeline.mem_restRefs_of main_v16 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Softmax

end
-- ==== Proof.Bridge.lean ====
/-
  The reference computes the same thing. Its program is the kernel's host prefix word for word — the same slice of
  the edge index, the same exp, the same scatter-add into zeros and the same gather — followed by one host division
  of exp(weight) by the gathered denominators. At the ideal instance the host's exp and the kernel's exp are one
  function on the extended reals, and so are the host's quotient and the kernel's; hence the reference's result is the
  kernel's, edge by edge, with no condition on the inputs.
-/
import proofs.«170172_j54065048322743_2_alg».proof.Proof.Result
import proofs.«170172_j54065048322743_2_alg».proof.Proof.Gen.ReferenceIdeal.Read
import Idealize.ShloMosaic.PureOps.Ideal

noncomputable section

namespace Cert.ReferenceIdeal.Softmax

open Idealize.ShloMosaic Idealize.ShloMosaic.TcCoe Idealize.SL.Sem

/-- The reference's gathered denominators are the kernel's: the two programs spell them with the same operations. -/
theorem denom_eq (x0 : (⟨Cert.ReferenceIdeal.S2x6400000, .i32⟩ : BufTy).Contents (Elt Ideal))
    (x1 : (⟨Cert.ReferenceIdeal.S6400000, .f32⟩ : BufTy).Contents (Elt Ideal)) :
    Cert.ReferenceIdeal.Read.val_main_v12 (F := Ideal) x0 x1 = Cert.KernelIdeal.Softmax.denom (F := Ideal) x0 x1 := rfl

/-- The reference's result is exp(weight) over the denominator, edge by edge: the kernel's result. -/
theorem result_eq (x0 : (⟨Cert.ReferenceIdeal.S2x6400000, .i32⟩ : BufTy).Contents (Elt Ideal))
    (x1 : (⟨Cert.ReferenceIdeal.S6400000, .f32⟩ : BufTy).Contents (Elt Ideal)) :
    Cert.ReferenceIdeal.Read.val_main_v13 (F := Ideal) x0 x1
      = Cert.KernelIdeal.Softmax.ratio (F := Ideal) x1 (Cert.KernelIdeal.Softmax.denom (F := Ideal) x0 x1) := by
  funext i
  rw [Cert.ReferenceIdeal.Read.val_main_v13_apply, Cert.ReferenceIdeal.Read.val_main_v2_apply, denom_eq]
  rfl

end Cert.ReferenceIdeal.Softmax

end
-- ==== Proof.lean ====
/-
  Graph softmax grouped by destination node, without the maximum subtracted: for every edge e,
  out[e] = exp(weight[e]) / Σ { exp(weight[e']) : dst[e'] = dst[e] }. The kernel computes the denominators on the
  host (a scatter-add and a gather), then divides in one region over rows of 128 edges; the reference does all of it
  on the host. The two results are one function of the arguments on the extended reals:
  the kernel's result is read off its run (Entry, Blocks, Result), the reference's off its run (Bridge).
  The idealization rewrote nothing, so there is nothing to preserve; the three frames are the programs' runs.
-/
import proofs.«170172_j54065048322743_2_alg».proof.Defs
import proofs.«170172_j54065048322743_2_alg».proof.Proof.Gen.Kernel
import proofs.«170172_j54065048322743_2_alg».proof.Proof.Gen.Kernel.Frame
import proofs.«170172_j54065048322743_2_alg».proof.Proof.Gen.KernelIdeal
import proofs.«170172_j54065048322743_2_alg».proof.Proof.Gen.KernelIdeal.Frame
import proofs.«170172_j54065048322743_2_alg».proof.Proof.Gen.ReferenceIdeal
import proofs.«170172_j54065048322743_2_alg».proof.Proof.Gen.Pre_finite_inputs
import proofs.«170172_j54065048322743_2_alg».proof.Proof.Gen.ReferenceIdeal.Run
import proofs.«170172_j54065048322743_2_alg».proof.Proof.Gen.ReferenceIdeal.Read
import proofs.«170172_j54065048322743_2_alg».proof.Proof.Result
import proofs.«170172_j54065048322743_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => ⟨(h c).1, (h c).2.2.2⟩)
    (Cert.ReferenceIdeal.Value.run (F := Ideal) m ρ)

/-- Both programs end with the edge index as it was and with exp(weight) over the denominators, edge by edge. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Softmax.ratio (F := Ideal)
      (m ((c.tc : Thread Cert.KernelIdeal.nD Cert.KernelIdeal.τ).loc Cert.KernelIdeal.main_arg1))
      (Cert.KernelIdeal.Softmax.denom (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.Softmax.run (F := Ideal) m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, (hagree c).1]
  · rw [(h c).2.1, Cert.ReferenceIdeal.Read.val_main_v13_eq, Cert.ReferenceIdeal.Softmax.result_eq,
      (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
